-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x16 : Shape := ⟨2, ![10000, 16]⟩
abbrev S128x128 : Shape := ⟨2, ![128, 128]⟩
abbrev S128x16 : Shape := ⟨2, ![128, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x16 : S_.BroadcastsInDim S10000x16 (![] : Fin 0 → Fin S10000x16.rank)
  reducesTo_S10000x16_S_d0_1 : S10000x16.ReducesTo [0, 1] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_

variable [Facts]

def fn_part1 {F : FTy → Type} [FloatOps F] (main_arg4 : FVec F S128x16 .f32) (main_arg5 : FVec F S128x16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x16 .f32 := Host.absf main_arg4
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S128x16 .f32 := Host.absf main_arg5
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S10000x16 .f32) (main_arg3 : FVec F S128x128 .f32) (main_arg4 : FVec F S128x16 .f32) (main_arg5 : FVec F S128x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x16 .f32 := Host.absf main_arg2
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S10000x16 : Shape := ⟨2, ![10000, 16]⟩
abbrev S128x128 : Shape := ⟨2, ![128, 128]⟩
abbrev S128x16 : Shape := ⟨2, ![128, 16]⟩
abbrev S400x10000 : Shape := ⟨2, ![400, 10000]⟩
abbrev S400x16 : Shape := ⟨2, ![400, 16]⟩
abbrev S400x128 : Shape := ⟨2, ![400, 128]⟩
abbrev S16x10000 : Shape := ⟨2, ![16, 10000]⟩

abbrev nBuf : Space → Nat
  | .hbm => 14
  | .vmem => 29
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x128, .f32⟩
  | .hbm, ⟨4, _⟩ => ⟨S128x16, .f32⟩
  | .hbm, ⟨5, _⟩ => ⟨S128x16, .f32⟩
  | .hbm, ⟨6, _⟩ => ⟨S10000x128, .f32⟩
  | .hbm, ⟨7, _⟩ => ⟨S10000x16, .f32⟩
  | .hbm, ⟨8, _⟩ => ⟨S10000x16, .f32⟩
  | .hbm, ⟨9, _⟩ => ⟨S10000x16, .f32⟩
  | .hbm, ⟨10, _⟩ => ⟨S10000x16, .f32⟩
  | .hbm, ⟨11, _⟩ => ⟨S10000x16, .f32⟩
  | .hbm, ⟨12, _⟩ => ⟨S16x10000, .f32⟩
  | .hbm, ⟨13, _⟩ => ⟨S10000x10000, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S128x16, .f32⟩
  | .local _ .vmem, ⟨7, _⟩ => ⟨S128x16, .f32⟩
  | .local _ .vmem, ⟨8, _⟩ => ⟨S400x16, .f32⟩
  | .local _ .vmem, ⟨9, _⟩ => ⟨S400x16, .f32⟩
  | .local _ .vmem, ⟨10, _⟩ => ⟨S400x16, .f32⟩
  | .local _ .vmem, ⟨11, _⟩ => ⟨S400x16, .f32⟩
  | .local _ .vmem, ⟨12, _⟩ => ⟨S400x10000, .f32⟩
  | .local _ .vmem, ⟨13, _⟩ => ⟨S400x10000, .f32⟩
  | .local _ .vmem, ⟨14, _⟩ => ⟨S10000x16, .f32⟩
  | .local _ .vmem, ⟨15, _⟩ => ⟨S10000x16, .f32⟩
  | .local _ .vmem, ⟨16, _⟩ => ⟨S400x16, .f32⟩
  | .local _ .vmem, ⟨17, _⟩ => ⟨S400x16, .f32⟩
  | .local _ .vmem, ⟨18, _⟩ => ⟨S400x16, .f32⟩
  | .local _ .vmem, ⟨19, _⟩ => ⟨S400x16, .f32⟩
  | .local _ .vmem, ⟨20, _⟩ => ⟨S400x16, .f32⟩
  | .local _ .vmem, ⟨21, _⟩ => ⟨S400x16, .f32⟩
  | .local _ .vmem, ⟨22, _⟩ => ⟨S400x16, .f32⟩
  | .local _ .vmem, ⟨23, _⟩ => ⟨S400x16, .f32⟩
  | .local _ .vmem, ⟨24, _⟩ => ⟨S400x16, .f32⟩
  | .local _ .vmem, ⟨25, _⟩ => ⟨S400x16, .f32⟩
  | .local _ .vmem, ⟨26, _⟩ => ⟨S16x10000, .f32⟩
  | .local _ .vmem, ⟨27, _⟩ => ⟨S400x10000, .f32⟩
  | .local _ .vmem, ⟨28, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S400x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x10000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S128x16_S128x16_0_0 : ∀ a, (![0, 0] : Fin 2 → Nat) a + S128x16.size a ≤ S128x16.size a
  h_S128x16 : 0 < S128x16.numel
  inb_S400x16_S400x16_0_0 : ∀ a, (![0, 0] : Fin 2 → Nat) a + S400x16.size a ≤ S400x16.size a
  h_S400x16 : 0 < S400x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  transposes_S10000x16_S16x10000_1_0 : S10000x16.Transposes [1, 0] S16x10000
  shapeCasts_S400x16_S400x16 : S400x16.ShapeCasts S400x16
  inb_S16x10000_S16x10000_0_0 : ∀ a, (![0, 0] : Fin 2 → Nat) a + S16x10000.size a ≤ S16x10000.size a
  h_S16x10000 : 0 < S16x10000.numel
  shapeCasts_S16x10000_S16x10000 : S16x10000.ShapeCasts S16x10000
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x16_S400x16_1_0_0_1_n_n_wf : DotDims.WF S400x128 S128x16 S400x16 [1] [0] [0] [1] [] []
  dot_S400x10000_S10000x16_S400x16_1_0_0_1_n_n_wf : DotDims.WF S400x10000 S10000x16 S400x16 [1] [0] [0] [1] [] []
  dot_S400x16_S16x10000_S400x10000_1_0_0_1_n_n_wf : DotDims.WF S400x16 S16x10000 S400x10000 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x16.size a ≤ S10000x16.size a
  hwx1_5 : ∀ i : grid1.Coords, EltTy.bits .f32 = 32 ∨ (Rect.block (s := S10000x16) S400x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S10000x16.size a
  hwx2_2 : ∀ i : grid2.Coords, EltTy.bits .f32 = 32 ∨ (Rect.block (s := S10000x16) S10000x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .f32 = 32 ∨ (Rect.block (s := S10000x16) S400x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x16.size a ≤ S10000x16.size a
  hwx2_5 : ∀ i : grid2.Coords, EltTy.bits .f32 = 32 ∨ (Rect.block (s := S10000x16) S400x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x16.size a ≤ S10000x16.size a
  hwx2_6 : ∀ i : grid2.Coords, EltTy.bits .f32 = 32 ∨ (Rect.block (s := S10000x16) S400x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x10000.size a ≤ S16x10000.size a
  hwx3_1 : ∀ i : grid3.Coords, EltTy.bits .f32 = 32 ∨ (Rect.block (s := S16x10000) S16x10000.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x16_S400x16_1_0_0_1_n_n : DotDims S400x128 S128x16 S400x16 where
  lhsContracting := [1]
  rhsContracting := [0]
  lhsNonContracting := [0]
  rhsNonContracting := [1]
  lhsBatch := []
  rhsBatch := []
  wf := dot_S400x128_S128x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x10000_S400x10000_1_0_0_1_n_n : DotDims S400x16 S16x10000 S400x10000 where
  lhsContracting := [1]
  rhsContracting := [0]
  lhsNonContracting := [0]
  rhsNonContracting := [1]
  lhsBatch := []
  rhsBatch := []
  wf := dot_S400x16_S16x10000_S400x10000_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S400x16.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S400x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S10000x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S400x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_0) S400x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2_1) S400x16.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v2_2) S400x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v2_2) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S16x10000.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x16 : Shape := ⟨2, ![10000, 16]⟩
abbrev S128x128 : Shape := ⟨2, ![128, 128]⟩
abbrev S128x16 : Shape := ⟨2, ![128, 16]⟩
abbrev S_ : Shape := ⟨0, ![]⟩
abbrev S16x10000 : Shape := ⟨2, ![16, 10000]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x128, .f32⟩
  | .hbm, ⟨4, _⟩ => ⟨S128x16, .f32⟩
  | .hbm, ⟨5, _⟩ => ⟨S128x16, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S16x10000, .f32⟩
  | .hbm, ⟨19, _⟩ => ⟨S10000x10000, .f32⟩
  | .hbm, ⟨20, _⟩ => ⟨S10000x10000, .f32⟩
  | .hbm, ⟨21, _⟩ => ⟨S10000x10000, .f32⟩
  | .hbm, ⟨22, _⟩ => ⟨S_, .f32⟩
  | .hbm, ⟨23, _⟩ => ⟨S10000x10000, .f32⟩
  | .hbm, ⟨24, _⟩ => ⟨S10000x10000, .f32⟩
  | .hbm, ⟨25, _⟩ => ⟨S_, .f32⟩
  | .hbm, ⟨26, _⟩ => ⟨S10000x10000, .f32⟩
  | .hbm, ⟨27, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  transposes_S10000x16_S16x10000_1_0 : S10000x16.Transposes [1, 0] S16x10000
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.NamedRun.lean ====
/-
  The idealized kernel's run with its results NAMED: every weakly fair execution of @main terminates, nothing
  faulting, with each of the three result arrays holding what the last segment boundary's contents say
  (the fold of the four launches and the one host transposition through @main), and the arguments as launched.
-/
import proofs.«171704_g11158325035212_week1_w3_1129_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result arrays read off the last boundary's contents. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v2_0) = W5 m ρ c (Proc.devRef .tc main_v2_0)
      ∧ r.2.mem ((c.tc : Thread nD τ).loc main_v2_1) = W5 m ρ c (Proc.devRef .tc main_v2_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       h c _ (mem_uc main_v2_0 (by decide)),
       h c _ (mem_uc main_v2_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Named

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibRowBlocks.lean ====
/-
  Row blocks of matrices over the extended reals.

  `rowsFrom r0 hr A` is rows `r0, …, r0 + m' - 1` of a matrix `A` with `n` rows (`hr : r0 + m' ≤ n`).
  A block of rows of a plain matrix product is the product of that block of rows of the LEFT operand with the whole
  right operand (`prod_rowsFrom`, by `rfl`: entry `(p, q)` of either side is `∑ k, A (r0 + p, k) * B (k, q)`) —
  what a kernel that tiles the rows of a product computes per block. General in every extent; no finiteness is asked.
  Also `zero_offsets`: the literal offsets `![0, 0]` of a whole-block access are the constant zero function.
  Imports the plain-product file `LibMatProd` (namespace `Cert.MatProd`), which must be copied with it.
-/
import proofs.«171704_g11158325035212_week1_w3_1129_2_alg».proof.Proof.LibMatProd

noncomputable section

open scoped BigOperators

namespace Cert.RowBlocks

open Idealize.ShloMosaic Idealize.ShloMosaic.ValueIdx Cert.MatProd

/-- A matrix of extended reals with `M` rows and `N` columns. -/
abbrev Mat (M N : Nat) : Type := (⟨2, ![M, N]⟩ : Shape).Idx → EReal

variable {n f l m' : Nat}

/-- The zero offsets of a whole-block access, however they are spelt. -/
theorem zero_offsets : (![0, 0] : Fin 2 → Nat) = fun _ => 0 := funext fun a => by fin_cases a <;> rfl

/-- Rows `r0, …, r0 + m' - 1` of a matrix. -/
def rowsFrom (r0 : Nat) (hr : r0 + m' ≤ n) (A : Mat n f) : Mat m' f :=
  fun y => A (ix2 ⟨r0 + (y 0).val, by have := idx2_lt0 y; omega⟩ (y 1))

/-- Entry `(p, q)` of the block is entry `(r0 + p, q)` of the matrix. -/
theorem rowsFrom_apply (r0 : Nat) (hr : r0 + m' ≤ n) (A : Mat n f) (p : Fin m') (q : Fin f) :
    rowsFrom r0 hr A (ix2 p q) = A (ix2 ⟨r0 + p.val, by have := p.isLt; omega⟩ q) := rfl

/-- A block of rows of a product is the product of that block of rows of the left operand. -/
theorem prod_rowsFrom (r0 : Nat) (hr : r0 + m' ≤ n) (A : Mat n f) (B : Mat f l) :
    prod (rowsFrom r0 hr A) B = rowsFrom r0 hr (prod A B) := rfl

/-- A function applied entry by entry commutes with taking a block of rows. -/
theorem map_rowsFrom (g : EReal → EReal) (r0 : Nat) (hr : r0 + m' ≤ n) (A : Mat n f) :
    (fun i => g (rowsFrom r0 hr A i)) = rowsFrom r0 hr (fun i => g (A i)) := rfl

end Cert.RowBlocks

end
-- ==== Proof.Spec.lean ====
/-
  The layers of a variational graph auto-encoder, as whole-array functions over the extended reals.

  With `A` the (dense) normalised adjacency, `X` the features and `W1`, `Wμ`, `Wσ` the weights:
    hidden     h  = relu (A · (X · W1))
    mean       μ  = A · (h · Wμ)          log-deviation  s = A · (h · Wσ)
    latent     Z  = μ + ε ⊙ exp s
    decoder    Â  = sigmoid (Z · Zᵀ)
  Every product is the plain matrix product `Cert.MatProd.prod`; nothing is re-associated, so no law of the
  extended reals beyond congruence is used and the statements hold at the infinities too.

  Each layer is also read ROW BLOCK by row block: a block of rows of the result is the layer applied to the same
  block of rows of its row operand (`*_rowsFrom`), which is what a kernel that tiles the rows computes.
-/
import proofs.«171704_g11158325035212_week1_w3_1129_2_alg».proof.Proof.LibRowBlocks

noncomputable section

open scoped BigOperators

namespace Cert.Vgae

open Idealize.ShloMosaic Idealize.ShloMosaic.ValueIdx Cert.MatProd Cert.RowBlocks

variable {n f h l m' : Nat}

/-- Clamp below at zero (the zero word read as an extended real). -/
def relu (x : Mat n h) : Mat n h := fun i => max (x i) (Ideal.ofBits .f32 0x00000000#32)

/-- One aggregation, clamped, then projected: `relu (A · xw) · W`. -/
def project (A : Mat n f) (xw : Mat f h) (W : Mat h l) : Mat n l := prod (relu (prod A xw)) W

/-- The reparameterised latent: `μ + ε ⊙ exp s`. -/
def sample (mu ls eps : Mat n l) : Mat n l := fun i => mu i + eps i * Ideal.exp (ls i)

/-- The latent from its two projected inputs: `A · hμ + ε ⊙ exp (A · hσ)`. -/
def latent (A : Mat n f) (hm hs : Mat f l) (eps : Mat n l) : Mat n l := sample (prod A hm) (prod A hs) eps

/-- The decoder: `sigmoid (Z · Zt)`, entry by entry. -/
def decode (z : Mat n l) (zt : Mat l f) : Mat n f := fun i => Ideal.logistic (prod z zt i)

/-! ## Row blocks -/

/-- Clamping acts row by row. -/
theorem relu_rowsFrom (r0 : Nat) (hr : r0 + m' ≤ n) (x : Mat n h) : relu (rowsFrom r0 hr x) = rowsFrom r0 hr (relu x) := rfl

/-- A block of rows of the clamped aggregation followed by a projection comes from the same rows of the adjacency. -/
theorem project_rowsFrom (r0 : Nat) (hr : r0 + m' ≤ n) (A : Mat n f) (xw : Mat f h) (W : Mat h l) :
    project (rowsFrom r0 hr A) xw W = rowsFrom r0 hr (project A xw W) := by
  unfold project
  rw [prod_rowsFrom, relu_rowsFrom, prod_rowsFrom]

/-- The same for the latent, whose noise is read at the same rows. -/
theorem latent_rowsFrom (r0 : Nat) (hr : r0 + m' ≤ n) (A : Mat n f) (hm hs : Mat f l) (eps : Mat n l) :
    latent (rowsFrom r0 hr A) hm hs (rowsFrom r0 hr eps) = rowsFrom r0 hr (latent A hm hs eps) := by
  unfold latent sample
  rw [prod_rowsFrom, prod_rowsFrom]
  rfl

/-- The same for the decoder: a block of rows of `Z` against the whole of `Zt`. -/
theorem decode_rowsFrom (r0 : Nat) (hr : r0 + m' ≤ n) (z : Mat n l) (zt : Mat l f) :
    decode (rowsFrom r0 hr z) zt = rowsFrom r0 hr (decode z zt) := by
  unfold decode
  rw [prod_rowsFrom]
  rfl

/-! ## The sigmoid, spelt out -/

/-- The word of `1.0` is the extended real one. -/
theorem ofBits_one_f32 : Ideal.ofBits .f32 0x3F800000#32 = 1 := by
  simp [Ideal.ofBits, Ideal.ieee, -EReal.coe_mul]; norm_num

/-- `1 / (1 + exp (-x))`, with the host's quotient and the literal ones, is the sigmoid on every extended real. -/
theorem div_one_add_exp_neg (x : EReal) :
    Ideal.div (Ideal.ofBits .f32 0x3F800000#32) (Ideal.ofBits .f32 0x3F800000#32 + Ideal.exp (-x)) = Ideal.logistic x := by
  rw [ofBits_one_f32]; rfl

end Cert.Vgae

end
-- ==== Proof.Launch0.lean ====
/-
  The first launch (no grid): `X · W1`, the whole arrays in one block.
  Its result array after the launch is the plain product of the two argument arrays as the launch finds them.
-/
import proofs.«171704_g11158325035212_week1_w3_1129_2_alg».proof.Proof.Gen.KernelIdeal.Frame
import proofs.«171704_g11158325035212_week1_w3_1129_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProd Cert.RowBlocks Cert.Vgae

-- the buffer contents when the launch is entered: a parameter, as in the generated frame
variable (V : (c : Dev nD) → (b : Ref sig .tc) → Buf (Elt Ideal) ((c : Thread nD τ).loc b))

/-! ## The one point's blocks -/

theorem t0_lt (t : Fin cfg0.N) : t.val < 1 := lt_of_lt_of_eq t.isLt N_0

/-- Window 0 (the features X): its one block is the whole array. -/
theorem idx0_0 : ∀ t : Fin cfg0.N, win0_0.index t (0 : Fin 2) = 0 ∧ win0_0.index t (1 : Fin 2) = 0 :=
  (by decide +kernel : ∀ t : Fin grid0.N, _)

/-- Window 1 (the weights W1): its one block is the whole array. -/
theorem idx0_1 : ∀ t : Fin cfg0.N, win0_1.index t (0 : Fin 2) = 0 ∧ win0_1.index t (1 : Fin 2) = 0 :=
  (by decide +kernel : ∀ t : Fin grid0.N, _)

/-- Window 2 (the result X · W1): its one block is the whole array. -/
theorem idx0_2 : ∀ t : Fin cfg0.N, win0_2.index t (0 : Fin 2) = 0 ∧ win0_2.index t (1 : Fin 2) = 0 :=
  (by decide +kernel : ∀ t : Fin grid0.N, _)

/-- Window 0's one block, read off any contents of its array, is the array. -/
theorem read0_0 (t : Fin cfg0.N) (G : S10000x128.Idx → EReal) :
    ((cfg0.win 0).blk t).view.read (Elt Ideal) G = G := by
  obtain ⟨e0, e1⟩ := idx0_0 t
  funext y
  show G (((cfg0.win 0).blk t).view.emb y) = G y
  refine congrArg G (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- Window 1's one block, read off any contents of its array, is the array. -/
theorem read0_1 (t : Fin cfg0.N) (G : S128x128.Idx → EReal) :
    ((cfg0.win 1).blk t).view.read (Elt Ideal) G = G := by
  obtain ⟨e0, e1⟩ := idx0_1 t
  funext y
  show G (((cfg0.win 1).blk t).view.emb y) = G y
  refine congrArg G (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2's one block, read off any contents of its array, is the array. -/
theorem read0_2 (t : Fin cfg0.N) (G : S10000x128.Idx → EReal) :
    ((cfg0.win 2).blk t).view.read (Elt Ideal) G = G := by
  obtain ⟨e0, e1⟩ := idx0_2 t
  funext y
  show G (((cfg0.win 2).blk t).view.emb y) = G y
  refine congrArg G (funext fun a => Fin.ext ?_)
  match a with
  | ⟨0, _⟩ => show win0_2.index t (0 : Fin 2) * 10000 + 1 * (y 0).val = (y 0).val; omega
  | ⟨1, _⟩ => show win0_2.index t (1 : Fin 2) * 128 + 1 * (y 1).val = (y 1).val; omega

/-! ## The body -/

/-- The body's product into the zero accumulator is the plain product. -/
theorem mm0 (a : FVec Ideal S10000x128 .f32) (b : FVec Ideal S128x128 .f32) :
    matmul (F := Ideal) dot_S10000x128_S128x128_S10000x128_1_0_0_1_n_n none a b (constant (F := Ideal) S10000x128 .f32 0x00000000#32) = prod a b :=
  matmul_plain_zero_eq (M := 10000) (K := 128) (N := 128) none a b

/-- What the body stores: `X · W1` of what it loaded. -/
theorem pay0_1 (x0 : Vec Ideal S10000x128 .f32) (x1 : Vec Ideal S128x128 .f32) : k0_pay1 x0 x1 = prod x0 x1 := by
  unfold k0_pay1
  dsimp only
  rw [mm0]

/-! ## The result array -/

/-- What the one point writes back is the whole of `X · W1` of the entry contents. -/
theorem flushed0_2 (c : Dev nD) (t : Fin cfg0.N) :
    (dat0 V c).flushed 2 t = ((cfg0.win 2).blk t).view.read (Elt Ideal)
      (prod (V c main_arg0 : S10000x128.Idx → EReal) (V c main_arg3 : S128x128.Idx → EReal)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  rw [pay0_1]
  unfold iblk0
  rw [read0_2, read0_0, read0_1]
  rfl

/-- An index of window 2's array is in point `t`'s block iff each coordinate is in the block's range on its axis. -/
theorem mem_blk0_2 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The blocks of window 2 cover its array: row `r` is in block `0`. -/
theorem covered0_2 (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ : ∃ t : Fin cfg0.N, t.val = 0 :=
    ⟨⟨0, by rw [show cfg0.N = 1 from N_0]; omega⟩, rfl⟩
  obtain ⟨e0, e1⟩ := idx0_2 t
  refine ⟨t, flush0_2 t, ?_⟩
  rw [mem_blk0_2]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- AFTER THE FIRST LAUNCH its result array holds `X · W1` of the entry contents. -/
theorem final0_2 (c : Dev nD) :
    (dat0 V c).arrAt 2 cfg0.N = prod (V c main_arg0 : S10000x128.Idx → EReal) (V c main_arg3 : S128x128.Idx → EReal) :=
  (dat0 V c).arrAt_eq_of_cover 2 _ (fun t _ => flushed0_2 V c t) covered0_2

end Cert.KernelIdeal.Layers

end
-- ==== Proof.Launch1.lean ====
/-
  The second launch, 25 points of 400 rows: per row block `relu (A_blk · xw)`, projected by `Wμ` and by `Wσ`.
  A block of rows of `relu (A · xw) · W` depends on the same rows of `A` only, so the 25 write-backs tile the two
  result arrays with the one whole-array function `Cert.Vgae.project` of the arrays as the launch finds them.
-/
import proofs.«171704_g11158325035212_week1_w3_1129_2_alg».proof.Proof.Gen.KernelIdeal.Frame
import proofs.«171704_g11158325035212_week1_w3_1129_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProd Cert.RowBlocks Cert.Vgae

-- the buffer contents when the launch is entered: a parameter, as in the generated frame
variable (V : (c : Dev nD) → (b : Ref sig .tc) → Buf (Elt Ideal) ((c : Thread nD τ).loc b))

/-! ## The points' blocks -/

theorem t1_lt (t : Fin cfg1.N) : t.val < 25 := lt_of_lt_of_eq t.isLt N_1

/-- Window 0 (the adjacency A): block `t` starts at row block `t`. -/
theorem idx1_0 : ∀ t : Fin cfg1.N, win1_0.index t (0 : Fin 2) = t.val ∧ win1_0.index t (1 : Fin 2) = 0 :=
  (by decide +kernel : ∀ t : Fin grid1.N, _)

/-- Window 1 (X · W1): its one block is the whole array. -/
theorem idx1_1 : ∀ t : Fin cfg1.N, win1_1.index t (0 : Fin 2) = 0 ∧ win1_1.index t (1 : Fin 2) = 0 :=
  (by decide +kernel : ∀ t : Fin grid1.N, _)

/-- Window 2 (the weights Wμ): its one block is the whole array. -/
theorem idx1_2 : ∀ t : Fin cfg1.N, win1_2.index t (0 : Fin 2) = 0 ∧ win1_2.index t (1 : Fin 2) = 0 :=
  (by decide +kernel : ∀ t : Fin grid1.N, _)

/-- Window 3 (the weights Wσ): its one block is the whole array. -/
theorem idx1_3 : ∀ t : Fin cfg1.N, win1_3.index t (0 : Fin 2) = 0 ∧ win1_3.index t (1 : Fin 2) = 0 :=
  (by decide +kernel : ∀ t : Fin grid1.N, _)

/-- Window 4 (the result h · Wμ): block `t` starts at row block `t`. -/
theorem idx1_4 : ∀ t : Fin cfg1.N, win1_4.index t (0 : Fin 2) = t.val ∧ win1_4.index t (1 : Fin 2) = 0 :=
  (by decide +kernel : ∀ t : Fin grid1.N, _)

/-- Window 5 (the result h · Wσ): block `t` starts at row block `t`. -/
theorem idx1_5 : ∀ t : Fin cfg1.N, win1_5.index t (0 : Fin 2) = t.val ∧ win1_5.index t (1 : Fin 2) = 0 :=
  (by decide +kernel : ∀ t : Fin grid1.N, _)

/-- Window 0's block at point `t`, read off any contents of its array, is rows `400·t, …, 400·t + 399`. -/
theorem read1_0 (t : Fin cfg1.N) (G : S10000x10000.Idx → EReal) :
    ((cfg1.win 0).blk t).view.read (Elt Ideal) G
      = rowsFrom (m' := 400) (n := 10000) (f := 10000) (400 * t.val) (by have := t1_lt t; omega) G := by
  obtain ⟨e0, e1⟩ := idx1_0 t
  funext y
  show G (((cfg1.win 0).blk t).view.emb y) = G (ix2 ⟨400 * t.val + (y 0).val, _⟩ (y 1))
  refine congrArg G (funext fun a => Fin.ext ?_)
  match a with
  | ⟨0, _⟩ => show win1_0.index t (0 : Fin 2) * 400 + 1 * (y 0).val = 400 * t.val + (y 0).val; omega
  | ⟨1, _⟩ => show win1_0.index t (1 : Fin 2) * 10000 + 1 * (y 1).val = (y 1).val; omega

/-- Window 1's one block, read off any contents of its array, is the array. -/
theorem read1_1 (t : Fin cfg1.N) (G : S10000x128.Idx → EReal) :
    ((cfg1.win 1).blk t).view.read (Elt Ideal) G = G := by
  obtain ⟨e0, e1⟩ := idx1_1 t
  funext y
  show G (((cfg1.win 1).blk t).view.emb y) = G y
  refine congrArg G (funext fun a => Fin.ext ?_)
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- Window 2's one block, read off any contents of its array, is the array. -/
theorem read1_2 (t : Fin cfg1.N) (G : S128x16.Idx → EReal) :
    ((cfg1.win 2).blk t).view.read (Elt Ideal) G = G := by
  obtain ⟨e0, e1⟩ := idx1_2 t
  funext y
  show G (((cfg1.win 2).blk t).view.emb y) = G y
  refine congrArg G (funext fun a => Fin.ext ?_)
  match a with
  | ⟨0, _⟩ => show win1_2.index t (0 : Fin 2) * 128 + 1 * (y 0).val = (y 0).val; omega
  | ⟨1, _⟩ => show win1_2.index t (1 : Fin 2) * 16 + 1 * (y 1).val = (y 1).val; omega

/-- Window 3's one block, read off any contents of its array, is the array. -/
theorem read1_3 (t : Fin cfg1.N) (G : S128x16.Idx → EReal) :
    ((cfg1.win 3).blk t).view.read (Elt Ideal) G = G := by
  obtain ⟨e0, e1⟩ := idx1_3 t
  funext y
  show G (((cfg1.win 3).blk t).view.emb y) = G y
  refine congrArg G (funext fun a => Fin.ext ?_)
  match a with
  | ⟨0, _⟩ => show win1_3.index t (0 : Fin 2) * 128 + 1 * (y 0).val = (y 0).val; omega
  | ⟨1, _⟩ => show win1_3.index t (1 : Fin 2) * 16 + 1 * (y 1).val = (y 1).val; omega

/-- Window 4's block at point `t`, read off any contents of its array, is rows `400·t, …, 400·t + 399`. -/
theorem read1_4 (t : Fin cfg1.N) (G : S10000x16.Idx → EReal) :
    ((cfg1.win 4).blk t).view.read (Elt Ideal) G
      = rowsFrom (m' := 400) (n := 10000) (f := 16) (400 * t.val) (by have := t1_lt t; omega) G := by
  obtain ⟨e0, e1⟩ := idx1_4 t
  funext y
  show G (((cfg1.win 4).blk t).view.emb y) = G (ix2 ⟨400 * t.val + (y 0).val, _⟩ (y 1))
  refine congrArg G (funext fun a => Fin.ext ?_)
  match a with
  | ⟨0, _⟩ => show win1_4.index t (0 : Fin 2) * 400 + 1 * (y 0).val = 400 * t.val + (y 0).val; omega
  | ⟨1, _⟩ => show win1_4.index t (1 : Fin 2) * 16 + 1 * (y 1).val = (y 1).val; omega

/-- Window 5's block at point `t`, read off any contents of its array, is rows `400·t, …, 400·t + 399`. -/
theorem read1_5 (t : Fin cfg1.N) (G : S10000x16.Idx → EReal) :
    ((cfg1.win 5).blk t).view.read (Elt Ideal) G
      = rowsFrom (m' := 400) (n := 10000) (f := 16) (400 * t.val) (by have := t1_lt t; omega) G := by
  obtain ⟨e0, e1⟩ := idx1_5 t
  funext y
  show G (((cfg1.win 5).blk t).view.emb y) = G (ix2 ⟨400 * t.val + (y 0).val, _⟩ (y 1))
  refine congrArg G (funext fun a => Fin.ext ?_)
  match a with
  | ⟨0, _⟩ => show win1_5.index t (0 : Fin 2) * 400 + 1 * (y 0).val = 400 * t.val + (y 0).val; omega
  | ⟨1, _⟩ => show win1_5.index t (1 : Fin 2) * 16 + 1 * (y 1).val = (y 1).val; omega

/-! ## The body -/

/-- The body's products into the zero accumulator are plain products. -/
theorem mm1a (a : FVec Ideal S400x10000 .f32) (b : FVec Ideal S10000x128 .f32) :
    matmul (F := Ideal) dot_S400x10000_S10000x128_S400x128_1_0_0_1_n_n none a b (constant (F := Ideal) S400x128 .f32 0x00000000#32) = prod a b :=
  matmul_plain_zero_eq (M := 400) (K := 10000) (N := 128) none a b

theorem mm1b (a : FVec Ideal S400x128 .f32) (b : FVec Ideal S128x16 .f32) :
    matmul (F := Ideal) dot_S400x128_S128x16_S400x16_1_0_0_1_n_n none a b (constant (F := Ideal) S400x16 .f32 0x00000000#32) = prod a b :=
  matmul_plain_zero_eq (M := 400) (K := 128) (N := 16) none a b

/-- The hidden block: the aggregation of the loaded rows, clamped at zero. -/
theorem pay1_1 (x0 : Vec Ideal S400x10000 .f32) (x1 : Vec Ideal S10000x128 .f32) : k1_pay1 x0 x1 = relu (prod x0 x1) := by
  unfold k1_pay1
  dsimp only
  rw [shapeCast_self, mm1a]
  rfl

/-- What the body stores first: the hidden block projected by `Wμ`. -/
theorem pay1_2 (x0 : Vec Ideal S400x10000 .f32) (x1 : Vec Ideal S10000x128 .f32) (x2 : Vec Ideal S128x16 .f32) :
    k1_pay2 x0 x1 x2 = project x0 x1 x2 := by
  unfold k1_pay2
  dsimp only
  rw [mm1b, pay1_1]
  rfl

/-- What it stores second: the same hidden block projected by `Wσ`. -/
theorem pay1_3 (x0 : Vec Ideal S400x10000 .f32) (x1 : Vec Ideal S10000x128 .f32) (x3 : Vec Ideal S128x16 .f32) :
    k1_pay3 x0 x1 x3 = project x0 x1 x3 := by
  unfold k1_pay3
  dsimp only
  rw [mm1b, pay1_1]
  rfl

/-! ## The result arrays -/

/-- What point `t` writes back to the first result is rows `400·t …` of `relu (A · xw) · Wμ` of the entry contents. -/
theorem flushed1_4 (c : Dev nD) (t : Fin cfg1.N) :
    (dat1 V c).flushed 4 t = ((cfg1.win 4).blk t).view.read (Elt Ideal)
      (project (V c main_arg1 : S10000x10000.Idx → EReal) (V c main_v0 : S10000x128.Idx → EReal) (V c main_arg4 : S128x16.Idx → EReal)) := by
  show (cfg1.win 4).cut (grid1.coords t) ((dat1 V c).after 4 t) = _
  rw [after1_4]
  unfold out1_4
  rw [View.canon_unit_zero zero_offsets]
  simp only [View.ld_unit_zero (S := S400x10000) zero_offsets, View.ld_unit_zero (S := S10000x128) zero_offsets, View.ld_unit_zero (S := S128x16) zero_offsets]
  rw [pay1_2]
  unfold iblk1
  rw [read1_4, read1_0, read1_1, read1_2, project_rowsFrom]
  rfl

/-- The same for the second result, with `Wσ`. -/
theorem flushed1_5 (c : Dev nD) (t : Fin cfg1.N) :
    (dat1 V c).flushed 5 t = ((cfg1.win 5).blk t).view.read (Elt Ideal)
      (project (V c main_arg1 : S10000x10000.Idx → EReal) (V c main_v0 : S10000x128.Idx → EReal) (V c main_arg5 : S128x16.Idx → EReal)) := by
  show (cfg1.win 5).cut (grid1.coords t) ((dat1 V c).after 5 t) = _
  rw [after1_5]
  unfold out1_5
  rw [View.canon_unit_zero zero_offsets]
  simp only [View.ld_unit_zero (S := S400x10000) zero_offsets, View.ld_unit_zero (S := S10000x128) zero_offsets, View.ld_unit_zero (S := S128x16) zero_offsets]
  rw [pay1_3]
  unfold iblk1
  rw [read1_5, read1_0, read1_1, read1_3, project_rowsFrom]
  rfl

/-- An index of window 4's array is in point `t`'s block iff each coordinate is in the block's range on its axis. -/
theorem mem_blk1_4 (t : Fin cfg1.N) (i : S10000x16.Idx) :
    i ∈ ((cfg1.win 4).blk t).view.set ↔ ∀ a : Fin 2, win1_4.index t a * S400x16.size a ≤ (i a).val ∧ (i a).val < win1_4.index t a * S400x16.size a + S400x16.size a := by
  show i ∈ ((View.whole main_v1_0).slice (win1_4.rect t)).set ↔ _
  rw [View.set_slice_whole, Rect.mem_set_unit]
  exact Iff.rfl

/-- An index of window 5's array is in point `t`'s block iff each coordinate is in the block's range on its axis. -/
theorem mem_blk1_5 (t : Fin cfg1.N) (i : S10000x16.Idx) :
    i ∈ ((cfg1.win 5).blk t).view.set ↔ ∀ a : Fin 2, win1_5.index t a * S400x16.size a ≤ (i a).val ∧ (i a).val < win1_5.index t a * S400x16.size a + S400x16.size a := by
  show i ∈ ((View.whole main_v1_1).slice (win1_5.rect t)).set ↔ _
  rw [View.set_slice_whole, Rect.mem_set_unit]
  exact Iff.rfl

/-- The blocks of window 4 cover its array: row `r` is in block `r / 400`. -/
theorem covered1_4 (i : S10000x16.Idx) :
    ∃ t : Fin cfg1.N, (cfg1.win 4).flush t = true ∧ i ∈ ((cfg1.win 4).blk t).view.set := by
  have hi0 : (i 0).val < 10000 := (i 0).isLt
  have hi1 : (i 1).val < 16 := (i 1).isLt
  obtain ⟨t, ht⟩ : ∃ t : Fin cfg1.N, t.val = (i 0).val / 400 :=
    ⟨⟨(i 0).val / 400, by rw [show cfg1.N = 25 from N_1]; omega⟩, rfl⟩
  obtain ⟨e0, e1⟩ := idx1_4 t
  refine ⟨t, flush1_4 t, ?_⟩
  rw [mem_blk1_4]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 16 ≤ (i 1).val ∧ (i 1).val < win1_4.index t (1 : Fin 2) * 16 + 16; omega

/-- The blocks of window 5 cover its array: row `r` is in block `r / 400`. -/
theorem covered1_5 (i : S10000x16.Idx) :
    ∃ t : Fin cfg1.N, (cfg1.win 5).flush t = true ∧ i ∈ ((cfg1.win 5).blk t).view.set := by
  have hi0 : (i 0).val < 10000 := (i 0).isLt
  have hi1 : (i 1).val < 16 := (i 1).isLt
  obtain ⟨t, ht⟩ : ∃ t : Fin cfg1.N, t.val = (i 0).val / 400 :=
    ⟨⟨(i 0).val / 400, by rw [show cfg1.N = 25 from N_1]; omega⟩, rfl⟩
  obtain ⟨e0, e1⟩ := idx1_5 t
  refine ⟨t, flush1_5 t, ?_⟩
  rw [mem_blk1_5]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 16 ≤ (i 1).val ∧ (i 1).val < win1_5.index t (1 : Fin 2) * 16 + 16; omega

/-- AFTER THE SECOND LAUNCH its first result array holds `relu (A · xw) · Wμ` of the entry contents. -/
theorem final1_4 (c : Dev nD) :
    (dat1 V c).arrAt 4 cfg1.N
      = project (V c main_arg1 : S10000x10000.Idx → EReal) (V c main_v0 : S10000x128.Idx → EReal) (V c main_arg4 : S128x16.Idx → EReal) :=
  (dat1 V c).arrAt_eq_of_cover 4 _ (fun t _ => flushed1_4 V c t) covered1_4

/-- … and its second `relu (A · xw) · Wσ`. -/
theorem final1_5 (c : Dev nD) :
    (dat1 V c).arrAt 5 cfg1.N
      = project (V c main_arg1 : S10000x10000.Idx → EReal) (V c main_v0 : S10000x128.Idx → EReal) (V c main_arg5 : S128x16.Idx → EReal) :=
  (dat1 V c).arrAt_eq_of_cover 5 _ (fun t _ => flushed1_5 V c t) covered1_5

end Cert.KernelIdeal.Layers

end
-- ==== Proof.Launch2.lean ====
/-
  The third launch, 25 points of 400 rows: per row block the mean `A_blk · hμ`, the log-deviation `A_blk · hσ` and
  the latent `μ_blk + ε_blk ⊙ exp s_blk`. Each is a block of rows of one whole-array function of the arrays as the
  launch finds them, so the 25 write-backs tile the three result arrays with those functions.
-/
import proofs.«171704_g11158325035212_week1_w3_1129_2_alg».proof.Proof.Gen.KernelIdeal.Frame
import proofs.«171704_g11158325035212_week1_w3_1129_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProd Cert.RowBlocks Cert.Vgae

-- the buffer contents when the launch is entered: a parameter, as in the generated frame
variable (V : (c : Dev nD) → (b : Ref sig .tc) → Buf (Elt Ideal) ((c : Thread nD τ).loc b))

/-! ## The points' blocks -/

theorem t2_lt (t : Fin cfg2.N) : t.val < 25 := lt_of_lt_of_eq t.isLt N_2

/-- Window 0 (the adjacency A): block `t` starts at row block `t`. -/
theorem idx2_0 : ∀ t : Fin cfg2.N, win2_0.index t (0 : Fin 2) = t.val ∧ win2_0.index t (1 : Fin 2) = 0 :=
  (by decide +kernel : ∀ t : Fin grid2.N, _)

/-- Window 1 (h · Wμ): its one block is the whole array. -/
theorem idx2_1 : ∀ t : Fin cfg2.N, win2_1.index t (0 : Fin 2) = 0 ∧ win2_1.index t (1 : Fin 2) = 0 :=
  (by decide +kernel : ∀ t : Fin grid2.N, _)

/-- Window 2 (h · Wσ): its one block is the whole array. -/
theorem idx2_2 : ∀ t : Fin cfg2.N, win2_2.index t (0 : Fin 2) = 0 ∧ win2_2.index t (1 : Fin 2) = 0 :=
  (by decide +kernel : ∀ t : Fin grid2.N, _)

/-- Window 3 (the noise ε): block `t` starts at row block `t`. -/
theorem idx2_3 : ∀ t : Fin cfg2.N, win2_3.index t (0 : Fin 2) = t.val ∧ win2_3.index t (1 : Fin 2) = 0 :=
  (by decide +kernel : ∀ t : Fin grid2.N, _)

/-- Window 4 (the result μ): block `t` starts at row block `t`. -/
theorem idx2_4 : ∀ t : Fin cfg2.N, win2_4.index t (0 : Fin 2) = t.val ∧ win2_4.index t (1 : Fin 2) = 0 :=
  (by decide +kernel : ∀ t : Fin grid2.N, _)

/-- Window 5 (the result s): block `t` starts at row block `t`. -/
theorem idx2_5 : ∀ t : Fin cfg2.N, win2_5.index t (0 : Fin 2) = t.val ∧ win2_5.index t (1 : Fin 2) = 0 :=
  (by decide +kernel : ∀ t : Fin grid2.N, _)

/-- Window 6 (the result Z): block `t` starts at row block `t`. -/
theorem idx2_6 : ∀ t : Fin cfg2.N, win2_6.index t (0 : Fin 2) = t.val ∧ win2_6.index t (1 : Fin 2) = 0 :=
  (by decide +kernel : ∀ t : Fin grid2.N, _)

/-- Window 0's block at point `t`, read off any contents of its array, is rows `400·t, …, 400·t + 399`. -/
theorem read2_0 (t : Fin cfg2.N) (G : S10000x10000.Idx → EReal) :
    ((cfg2.win 0).blk t).view.read (Elt Ideal) G
      = rowsFrom (m' := 400) (n := 10000) (f := 10000) (400 * t.val) (by have := t2_lt t; omega) G := by
  obtain ⟨e0, e1⟩ := idx2_0 t
  funext y
  show G (((cfg2.win 0).blk t).view.emb y) = G (ix2 ⟨400 * t.val + (y 0).val, _⟩ (y 1))
  refine congrArg G (funext fun a => Fin.ext ?_)
  match a with
  | ⟨0, _⟩ => show win2_0.index t (0 : Fin 2) * 400 + 1 * (y 0).val = 400 * t.val + (y 0).val; omega
  | ⟨1, _⟩ => show win2_0.index t (1 : Fin 2) * 10000 + 1 * (y 1).val = (y 1).val; omega

/-- Window 1's one block, read off any contents of its array, is the array. -/
theorem read2_1 (t : Fin cfg2.N) (G : S10000x16.Idx → EReal) :
    ((cfg2.win 1).blk t).view.read (Elt Ideal) G = G := by
  obtain ⟨e0, e1⟩ := idx2_1 t
  funext y
  show G (((cfg2.win 1).blk t).view.emb y) = G y
  refine congrArg G (funext fun a => Fin.ext ?_)
  match a with
  | ⟨0, _⟩ => show win2_1.index t (0 : Fin 2) * 10000 + 1 * (y 0).val = (y 0).val; omega
  | ⟨1, _⟩ => show win2_1.index t (1 : Fin 2) * 16 + 1 * (y 1).val = (y 1).val; omega

/-- Window 2's one block, read off any contents of its array, is the array. -/
theorem read2_2 (t : Fin cfg2.N) (G : S10000x16.Idx → EReal) :
    ((cfg2.win 2).blk t).view.read (Elt Ideal) G = G := by
  obtain ⟨e0, e1⟩ := idx2_2 t
  funext y
  show G (((cfg2.win 2).blk t).view.emb y) = G y
  refine congrArg G (funext fun a => Fin.ext ?_)
  match a with
  | ⟨0, _⟩ => show win2_2.index t (0 : Fin 2) * 10000 + 1 * (y 0).val = (y 0).val; omega
  | ⟨1, _⟩ => show win2_2.index t (1 : Fin 2) * 16 + 1 * (y 1).val = (y 1).val; omega

/-- Window 3's block at point `t`, read off any contents of its array, is rows `400·t, …, 400·t + 399`. -/
theorem read2_3 (t : Fin cfg2.N) (G : S10000x16.Idx → EReal) :
    ((cfg2.win 3).blk t).view.read (Elt Ideal) G
      = rowsFrom (m' := 400) (n := 10000) (f := 16) (400 * t.val) (by have := t2_lt t; omega) G := by
  obtain ⟨e0, e1⟩ := idx2_3 t
  funext y
  show G (((cfg2.win 3).blk t).view.emb y) = G (ix2 ⟨400 * t.val + (y 0).val, _⟩ (y 1))
  refine congrArg G (funext fun a => Fin.ext ?_)
  match a with
  | ⟨0, _⟩ => show win2_3.index t (0 : Fin 2) * 400 + 1 * (y 0).val = 400 * t.val + (y 0).val; omega
  | ⟨1, _⟩ => show win2_3.index t (1 : Fin 2) * 16 + 1 * (y 1).val = (y 1).val; omega

/-- Window 4's block at point `t`, read off any contents of its array, is rows `400·t, …, 400·t + 399`. -/
theorem read2_4 (t : Fin cfg2.N) (G : S10000x16.Idx → EReal) :
    ((cfg2.win 4).blk t).view.read (Elt Ideal) G
      = rowsFrom (m' := 400) (n := 10000) (f := 16) (400 * t.val) (by have := t2_lt t; omega) G := by
  obtain ⟨e0, e1⟩ := idx2_4 t
  funext y
  show G (((cfg2.win 4).blk t).view.emb y) = G (ix2 ⟨400 * t.val + (y 0).val, _⟩ (y 1))
  refine congrArg G (funext fun a => Fin.ext ?_)
  match a with
  | ⟨0, _⟩ => show win2_4.index t (0 : Fin 2) * 400 + 1 * (y 0).val = 400 * t.val + (y 0).val; omega
  | ⟨1, _⟩ => show win2_4.index t (1 : Fin 2) * 16 + 1 * (y 1).val = (y 1).val; omega

/-- Window 5's block at point `t`, read off any contents of its array, is rows `400·t, …, 400·t + 399`. -/
theorem read2_5 (t : Fin cfg2.N) (G : S10000x16.Idx → EReal) :
    ((cfg2.win 5).blk t).view.read (Elt Ideal) G
      = rowsFrom (m' := 400) (n := 10000) (f := 16) (400 * t.val) (by have := t2_lt t; omega) G := by
  obtain ⟨e0, e1⟩ := idx2_5 t
  funext y
  show G (((cfg2.win 5).blk t).view.emb y) = G (ix2 ⟨400 * t.val + (y 0).val, _⟩ (y 1))
  refine congrArg G (funext fun a => Fin.ext ?_)
  match a with
  | ⟨0, _⟩ => show win2_5.index t (0 : Fin 2) * 400 + 1 * (y 0).val = 400 * t.val + (y 0).val; omega
  | ⟨1, _⟩ => show win2_5.index t (1 : Fin 2) * 16 + 1 * (y 1).val = (y 1).val; omega

/-- Window 6's block at point `t`, read off any contents of its array, is rows `400·t, …, 400·t + 399`. -/
theorem read2_6 (t : Fin cfg2.N) (G : S10000x16.Idx → EReal) :
    ((cfg2.win 6).blk t).view.read (Elt Ideal) G
      = rowsFrom (m' := 400) (n := 10000) (f := 16) (400 * t.val) (by have := t2_lt t; omega) G := by
  obtain ⟨e0, e1⟩ := idx2_6 t
  funext y
  show G (((cfg2.win 6).blk t).view.emb y) = G (ix2 ⟨400 * t.val + (y 0).val, _⟩ (y 1))
  refine congrArg G (funext fun a => Fin.ext ?_)
  match a with
  | ⟨0, _⟩ => show win2_6.index t (0 : Fin 2) * 400 + 1 * (y 0).val = 400 * t.val + (y 0).val; omega
  | ⟨1, _⟩ => show win2_6.index t (1 : Fin 2) * 16 + 1 * (y 1).val = (y 1).val; omega

/-! ## The body -/

/-- The body's products into the zero accumulator are plain products. -/
theorem mm2 (a : FVec Ideal S400x10000 .f32) (b : FVec Ideal S10000x16 .f32) :
    matmul (F := Ideal) dot_S400x10000_S10000x16_S400x16_1_0_0_1_n_n none a b (constant (F := Ideal) S400x16 .f32 0x00000000#32) = prod a b :=
  matmul_plain_zero_eq (M := 400) (K := 10000) (N := 16) none a b

/-- What the body stores first: the mean's rows. -/
theorem pay2_1 (x0 : Vec Ideal S400x10000 .f32) (x1 : Vec Ideal S10000x16 .f32) : k2_pay1 x0 x1 = prod x0 x1 := by
  unfold k2_pay1
  dsimp only
  rw [shapeCast_self, mm2]

/-- Second: the log-deviation's rows. -/
theorem pay2_2 (x0 : Vec Ideal S400x10000 .f32) (x2 : Vec Ideal S10000x16 .f32) : k2_pay2 x0 x2 = prod x0 x2 := by
  unfold k2_pay2
  dsimp only
  rw [shapeCast_self, mm2]

/-- Third: the latent's rows, `μ + ε ⊙ exp s`. -/
theorem pay2_3 (x0 : Vec Ideal S400x10000 .f32) (x1 x2 : Vec Ideal S10000x16 .f32) (x3 : Vec Ideal S400x16 .f32) :
    k2_pay3 x0 x1 x2 x3 = latent x0 x1 x2 x3 := by
  unfold k2_pay3
  dsimp only
  rw [pay2_1, pay2_2]
  rfl

/-! ## The result arrays -/

/-- What point `t` writes back to the first result is rows `400·t …` of `A · hμ` of the entry contents. -/
theorem flushed2_4 (c : Dev nD) (t : Fin cfg2.N) :
    (dat2 V c).flushed 4 t = ((cfg2.win 4).blk t).view.read (Elt Ideal)
      (prod (V c main_arg1 : S10000x10000.Idx → EReal) (V c main_v1_0 : S10000x16.Idx → EReal)) := by
  show (cfg2.win 4).cut (grid2.coords t) ((dat2 V c).after 4 t) = _
  rw [after2_4]
  unfold out2_4
  rw [View.canon_unit_zero zero_offsets]
  simp only [View.ld_unit_zero (S := S400x10000) zero_offsets, View.ld_unit_zero (S := S10000x16) zero_offsets, View.ld_unit_zero (S := S400x16) zero_offsets]
  rw [pay2_1]
  unfold iblk2
  rw [read2_4, read2_0, read2_1, prod_rowsFrom]
  rfl

/-- To the second, rows of `A · hσ`. -/
theorem flushed2_5 (c : Dev nD) (t : Fin cfg2.N) :
    (dat2 V c).flushed 5 t = ((cfg2.win 5).blk t).view.read (Elt Ideal)
      (prod (V c main_arg1 : S10000x10000.Idx → EReal) (V c main_v1_1 : S10000x16.Idx → EReal)) := by
  show (cfg2.win 5).cut (grid2.coords t) ((dat2 V c).after 5 t) = _
  rw [after2_5]
  unfold out2_5
  rw [View.canon_unit_zero zero_offsets]
  simp only [View.ld_unit_zero (S := S400x10000) zero_offsets, View.ld_unit_zero (S := S10000x16) zero_offsets, View.ld_unit_zero (S := S400x16) zero_offsets]
  rw [pay2_2]
  unfold iblk2
  rw [read2_5, read2_0, read2_2, prod_rowsFrom]
  rfl

/-- To the third, rows of the latent `A · hμ + ε ⊙ exp (A · hσ)`. -/
theorem flushed2_6 (c : Dev nD) (t : Fin cfg2.N) :
    (dat2 V c).flushed 6 t = ((cfg2.win 6).blk t).view.read (Elt Ideal)
      (latent (V c main_arg1 : S10000x10000.Idx → EReal) (V c main_v1_0 : S10000x16.Idx → EReal)
        (V c main_v1_1 : S10000x16.Idx → EReal) (V c main_arg2 : S10000x16.Idx → EReal)) := by
  show (cfg2.win 6).cut (grid2.coords t) ((dat2 V c).after 6 t) = _
  rw [after2_6]
  unfold out2_6
  rw [View.canon_unit_zero zero_offsets]
  simp only [View.ld_unit_zero (S := S400x10000) zero_offsets, View.ld_unit_zero (S := S10000x16) zero_offsets, View.ld_unit_zero (S := S400x16) zero_offsets]
  rw [pay2_3]
  unfold iblk2
  rw [read2_6, read2_0, read2_1, read2_2, read2_3, latent_rowsFrom]
  rfl

/-- An index of window 4's array is in point `t`'s block iff each coordinate is in the block's range on its axis. -/
theorem mem_blk2_4 (t : Fin cfg2.N) (i : S10000x16.Idx) :
    i ∈ ((cfg2.win 4).blk t).view.set ↔ ∀ a : Fin 2, win2_4.index t a * S400x16.size a ≤ (i a).val ∧ (i a).val < win2_4.index t a * S400x16.size a + S400x16.size a := by
  show i ∈ ((View.whole main_v2_0).slice (win2_4.rect t)).set ↔ _
  rw [View.set_slice_whole, Rect.mem_set_unit]
  exact Iff.rfl

/-- An index of window 5's array is in point `t`'s block iff each coordinate is in the block's range on its axis. -/
theorem mem_blk2_5 (t : Fin cfg2.N) (i : S10000x16.Idx) :
    i ∈ ((cfg2.win 5).blk t).view.set ↔ ∀ a : Fin 2, win2_5.index t a * S400x16.size a ≤ (i a).val ∧ (i a).val < win2_5.index t a * S400x16.size a + S400x16.size a := by
  show i ∈ ((View.whole main_v2_1).slice (win2_5.rect t)).set ↔ _
  rw [View.set_slice_whole, Rect.mem_set_unit]
  exact Iff.rfl

/-- An index of window 6's array is in point `t`'s block iff each coordinate is in the block's range on its axis. -/
theorem mem_blk2_6 (t : Fin cfg2.N) (i : S10000x16.Idx) :
    i ∈ ((cfg2.win 6).blk t).view.set ↔ ∀ a : Fin 2, win2_6.index t a * S400x16.size a ≤ (i a).val ∧ (i a).val < win2_6.index t a * S400x16.size a + S400x16.size a := by
  show i ∈ ((View.whole main_v2_2).slice (win2_6.rect t)).set ↔ _
  rw [View.set_slice_whole, Rect.mem_set_unit]
  exact Iff.rfl

/-- The blocks of window 4 cover its array: row `r` is in block `r / 400`. -/
theorem covered2_4 (i : S10000x16.Idx) :
    ∃ t : Fin cfg2.N, (cfg2.win 4).flush t = true ∧ i ∈ ((cfg2.win 4).blk t).view.set := by
  have hi0 : (i 0).val < 10000 := (i 0).isLt
  have hi1 : (i 1).val < 16 := (i 1).isLt
  obtain ⟨t, ht⟩ : ∃ t : Fin cfg2.N, t.val = (i 0).val / 400 :=
    ⟨⟨(i 0).val / 400, by rw [show cfg2.N = 25 from N_2]; omega⟩, rfl⟩
  obtain ⟨e0, e1⟩ := idx2_4 t
  refine ⟨t, flush2_4 t, ?_⟩
  rw [mem_blk2_4]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 16 ≤ (i 1).val ∧ (i 1).val < win2_4.index t (1 : Fin 2) * 16 + 16; omega

/-- The blocks of window 5 cover its array: row `r` is in block `r / 400`. -/
theorem covered2_5 (i : S10000x16.Idx) :
    ∃ t : Fin cfg2.N, (cfg2.win 5).flush t = true ∧ i ∈ ((cfg2.win 5).blk t).view.set := by
  have hi0 : (i 0).val < 10000 := (i 0).isLt
  have hi1 : (i 1).val < 16 := (i 1).isLt
  obtain ⟨t, ht⟩ : ∃ t : Fin cfg2.N, t.val = (i 0).val / 400 :=
    ⟨⟨(i 0).val / 400, by rw [show cfg2.N = 25 from N_2]; omega⟩, rfl⟩
  obtain ⟨e0, e1⟩ := idx2_5 t
  refine ⟨t, flush2_5 t, ?_⟩
  rw [mem_blk2_5]
  intro a
  match a with
  | ⟨0, _⟩ => show win2_5.index t (0 : Fin 2) * 400 ≤ (i 0).val ∧ (i 0).val < win2_5.index t (0 : Fin 2) * 400 + 400; omega
  | ⟨1, _⟩ => show win2_5.index t (1 : Fin 2) * 16 ≤ (i 1).val ∧ (i 1).val < win2_5.index t (1 : Fin 2) * 16 + 16; omega

/-- The blocks of window 6 cover its array: row `r` is in block `r / 400`. -/
theorem covered2_6 (i : S10000x16.Idx) :
    ∃ t : Fin cfg2.N, (cfg2.win 6).flush t = true ∧ i ∈ ((cfg2.win 6).blk t).view.set := by
  have hi0 : (i 0).val < 10000 := (i 0).isLt
  have hi1 : (i 1).val < 16 := (i 1).isLt
  obtain ⟨t, ht⟩ : ∃ t : Fin cfg2.N, t.val = (i 0).val / 400 :=
    ⟨⟨(i 0).val / 400, by rw [show cfg2.N = 25 from N_2]; omega⟩, rfl⟩
  obtain ⟨e0, e1⟩ := idx2_6 t
  refine ⟨t, flush2_6 t, ?_⟩
  rw [mem_blk2_6]
  intro a
  match a with
  | ⟨0, _⟩ => show win2_6.index t (0 : Fin 2) * 400 ≤ (i 0).val ∧ (i 0).val < win2_6.index t (0 : Fin 2) * 400 + 400; omega
  | ⟨1, _⟩ => show win2_6.index t (1 : Fin 2) * 16 ≤ (i 1).val ∧ (i 1).val < win2_6.index t (1 : Fin 2) * 16 + 16; omega

/-- AFTER THE THIRD LAUNCH its first result array holds the mean `A · hμ` of the entry contents, -/
theorem final2_4 (c : Dev nD) :
    (dat2 V c).arrAt 4 cfg2.N = prod (V c main_arg1 : S10000x10000.Idx → EReal) (V c main_v1_0 : S10000x16.Idx → EReal) :=
  (dat2 V c).arrAt_eq_of_cover 4 _ (fun t _ => flushed2_4 V c t) covered2_4

/-- its second the log-deviation `A · hσ`, -/
theorem final2_5 (c : Dev nD) :
    (dat2 V c).arrAt 5 cfg2.N = prod (V c main_arg1 : S10000x10000.Idx → EReal) (V c main_v1_1 : S10000x16.Idx → EReal) :=
  (dat2 V c).arrAt_eq_of_cover 5 _ (fun t _ => flushed2_5 V c t) covered2_5

/-- and its third the latent. -/
theorem final2_6 (c : Dev nD) :
    (dat2 V c).arrAt 6 cfg2.N
      = latent (V c main_arg1 : S10000x10000.Idx → EReal) (V c main_v1_0 : S10000x16.Idx → EReal)
          (V c main_v1_1 : S10000x16.Idx → EReal) (V c main_arg2 : S10000x16.Idx → EReal) :=
  (dat2 V c).arrAt_eq_of_cover 6 _ (fun t _ => flushed2_6 V c t) covered2_6

end Cert.KernelIdeal.Layers

end
-- ==== Proof.Launch3.lean ====
/-
  The last launch, 25 points of 400 rows: per row block `sigmoid (Z_blk · Zt)`, against the whole transposed latent.
  A block of rows of `sigmoid (Z · Zt)` depends on the same rows of `Z` only, so the 25 write-backs tile the result.
-/
import proofs.«171704_g11158325035212_week1_w3_1129_2_alg».proof.Proof.Gen.KernelIdeal.Frame
import proofs.«171704_g11158325035212_week1_w3_1129_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProd Cert.RowBlocks Cert.Vgae

-- the buffer contents when the launch is entered: a parameter, as in the generated frame
variable (V : (c : Dev nD) → (b : Ref sig .tc) → Buf (Elt Ideal) ((c : Thread nD τ).loc b))

/-! ## The points' blocks -/

theorem t3_lt (t : Fin cfg3.N) : t.val < 25 := lt_of_lt_of_eq t.isLt N_3

/-- Window 0 (the latent Z): block `t` starts at row block `t`. -/
theorem idx3_0 : ∀ t : Fin cfg3.N, win3_0.index t (0 : Fin 2) = t.val ∧ win3_0.index t (1 : Fin 2) = 0 :=
  (by decide +kernel : ∀ t : Fin grid3.N, _)

/-- Window 1 (the transposed latent): its one block is the whole array. -/
theorem idx3_1 : ∀ t : Fin cfg3.N, win3_1.index t (0 : Fin 2) = 0 ∧ win3_1.index t (1 : Fin 2) = 0 :=
  (by decide +kernel : ∀ t : Fin grid3.N, _)

/-- Window 2 (the result Â): block `t` starts at row block `t`. -/
theorem idx3_2 : ∀ t : Fin cfg3.N, win3_2.index t (0 : Fin 2) = t.val ∧ win3_2.index t (1 : Fin 2) = 0 :=
  (by decide +kernel : ∀ t : Fin grid3.N, _)

/-- Window 0's block at point `t`, read off any contents of its array, is rows `400·t, …, 400·t + 399`. -/
theorem read3_0 (t : Fin cfg3.N) (G : S10000x16.Idx → EReal) :
    ((cfg3.win 0).blk t).view.read (Elt Ideal) G
      = rowsFrom (m' := 400) (n := 10000) (f := 16) (400 * t.val) (by have := t3_lt t; omega) G := by
  obtain ⟨e0, e1⟩ := idx3_0 t
  funext y
  show G (((cfg3.win 0).blk t).view.emb y) = G (ix2 ⟨400 * t.val + (y 0).val, _⟩ (y 1))
  refine congrArg G (funext fun a => Fin.ext ?_)
  match a with
  | ⟨0, _⟩ => show win3_0.index t (0 : Fin 2) * 400 + 1 * (y 0).val = 400 * t.val + (y 0).val; omega
  | ⟨1, _⟩ => show win3_0.index t (1 : Fin 2) * 16 + 1 * (y 1).val = (y 1).val; omega

/-- Window 1's one block, read off any contents of its array, is the array. -/
theorem read3_1 (t : Fin cfg3.N) (G : S16x10000.Idx → EReal) :
    ((cfg3.win 1).blk t).view.read (Elt Ideal) G = G := by
  obtain ⟨e0, e1⟩ := idx3_1 t
  funext y
  show G (((cfg3.win 1).blk t).view.emb y) = G y
  refine congrArg G (funext fun a => Fin.ext ?_)
  match a with
  | ⟨0, _⟩ => show win3_1.index t (0 : Fin 2) * 16 + 1 * (y 0).val = (y 0).val; omega
  | ⟨1, _⟩ => show win3_1.index t (1 : Fin 2) * 10000 + 1 * (y 1).val = (y 1).val; omega

/-- Window 2's block at point `t`, read off any contents of its array, is rows `400·t, …, 400·t + 399`. -/
theorem read3_2 (t : Fin cfg3.N) (G : S10000x10000.Idx → EReal) :
    ((cfg3.win 2).blk t).view.read (Elt Ideal) G
      = rowsFrom (m' := 400) (n := 10000) (f := 10000) (400 * t.val) (by have := t3_lt t; omega) G := by
  obtain ⟨e0, e1⟩ := idx3_2 t
  funext y
  show G (((cfg3.win 2).blk t).view.emb y) = G (ix2 ⟨400 * t.val + (y 0).val, _⟩ (y 1))
  refine congrArg G (funext fun a => Fin.ext ?_)
  match a with
  | ⟨0, _⟩ => show win3_2.index t (0 : Fin 2) * 400 + 1 * (y 0).val = 400 * t.val + (y 0).val; omega
  | ⟨1, _⟩ => show win3_2.index t (1 : Fin 2) * 10000 + 1 * (y 1).val = (y 1).val; omega

/-! ## The body -/

/-- The body's product into the zero accumulator is the plain product. -/
theorem mm3 (a : FVec Ideal S400x16 .f32) (b : FVec Ideal S16x10000 .f32) :
    matmul (F := Ideal) dot_S400x16_S16x10000_S400x10000_1_0_0_1_n_n none a b (constant (F := Ideal) S400x10000 .f32 0x00000000#32) = prod a b :=
  matmul_plain_zero_eq (M := 400) (K := 16) (N := 10000) none a b

/-- What the body stores: the sigmoid of the loaded rows of `Z` against the whole of `Zt`. -/
theorem pay3_1 (x0 : Vec Ideal S400x16 .f32) (x1 : Vec Ideal S16x10000 .f32) : k3_pay1 x0 x1 = decode x0 x1 := by
  unfold k3_pay1
  dsimp only
  rw [shapeCast_self, shapeCast_self, mm3]
  rfl

/-! ## The result array -/

/-- What point `t` writes back is rows `400·t …` of `sigmoid (Z · Zt)` of the entry contents. -/
theorem flushed3_2 (c : Dev nD) (t : Fin cfg3.N) :
    (dat3 V c).flushed 2 t = ((cfg3.win 2).blk t).view.read (Elt Ideal)
      (decode (V c main_v2_2 : S10000x16.Idx → EReal) (V c main_v3 : S16x10000.Idx → EReal)) := by
  show (cfg3.win 2).cut (grid3.coords t) ((dat3 V c).after 2 t) = _
  rw [after3_2]
  unfold out3_2
  rw [View.canon_unit_zero zero_offsets]
  simp only [View.ld_unit_zero (S := S400x16) zero_offsets, View.ld_unit_zero (S := S16x10000) zero_offsets]
  rw [pay3_1]
  unfold iblk3
  rw [read3_2, read3_0, read3_1, decode_rowsFrom]
  rfl

/-- An index of window 2's array is in point `t`'s block iff each coordinate is in the block's range on its axis. -/
theorem mem_blk3_2 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v4).slice (win3_2.rect t)).set ↔ _
  rw [View.set_slice_whole, Rect.mem_set_unit]
  exact Iff.rfl

/-- The blocks of window 2 cover its array: row `r` is in block `r / 400`. -/
theorem covered3_2 (i : S10000x10000.Idx) :
    ∃ t : Fin cfg3.N, (cfg3.win 2).flush t = true ∧ i ∈ ((cfg3.win 2).blk t).view.set := by
  have hi0 : (i 0).val < 10000 := (i 0).isLt
  have hi1 : (i 1).val < 10000 := (i 1).isLt
  obtain ⟨t, ht⟩ : ∃ t : Fin cfg3.N, t.val = (i 0).val / 400 :=
    ⟨⟨(i 0).val / 400, by rw [show cfg3.N = 25 from N_3]; omega⟩, rfl⟩
  obtain ⟨e0, e1⟩ := idx3_2 t
  refine ⟨t, flush3_2 t, ?_⟩
  rw [mem_blk3_2]
  intro a
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 10000 ≤ (i 1).val ∧ (i 1).val < win3_2.index t (1 : Fin 2) * 10000 + 10000; omega

/-- AFTER THE LAST LAUNCH its result array holds `sigmoid (Z · Zt)` of the entry contents. -/
theorem final3_2 (c : Dev nD) :
    (dat3 V c).arrAt 2 cfg3.N = decode (V c main_v2_2 : S10000x16.Idx → EReal) (V c main_v3 : S16x10000.Idx → EReal) :=
  (dat3 V c).arrAt_eq_of_cover 2 _ (fun t _ => flushed3_2 V c t) covered3_2

end Cert.KernelIdeal.Layers

end
-- ==== Proof.KernelLayers.lean ====
/-
  The idealized kernel's three results as functions of its arguments.

  @main is four launches with one host transposition before the last. The contents of every buffer at each segment
  boundary are a fold through @main; walking that fold backwards, array by array:
    after launch 0   xw = X · W1
    after launch 1   hμ = relu (A · xw) · Wμ,  hσ = relu (A · xw) · Wσ
    after launch 2   μ = A · hμ,  s = A · hσ,  Z = μ + ε ⊙ exp s
    the host line    Zt = transpose Z
    after launch 3   Â = sigmoid (Z · Zt)
  An array no launch writes keeps its launch contents (an input window's array is left as found).
-/
import proofs.«171704_g11158325035212_week1_w3_1129_2_alg».proof.Proof.NamedRun
import proofs.«171704_g11158325035212_week1_w3_1129_2_alg».proof.Proof.Launch0
import proofs.«171704_g11158325035212_week1_w3_1129_2_alg».proof.Proof.Launch1
import proofs.«171704_g11158325035212_week1_w3_1129_2_alg».proof.Proof.Launch2
import proofs.«171704_g11158325035212_week1_w3_1129_2_alg».proof.Proof.Launch3
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProd Cert.RowBlocks Cert.Vgae

variable (m : (ℓ : Loc nD τ sig) → Buf (Elt Ideal) ℓ) (ρ : Dev nD → PrngReg) (c : Dev nD)

/-- The argument arrays at launch. -/
abbrev argX : S10000x128.Idx → EReal := m ((c.tc : Thread nD τ).loc main_arg0)
abbrev argA : S10000x10000.Idx → EReal := m ((c.tc : Thread nD τ).loc main_arg1)
abbrev argE : S10000x16.Idx → EReal := m ((c.tc : Thread nD τ).loc main_arg2)
abbrev argW : S128x128.Idx → EReal := m ((c.tc : Thread nD τ).loc main_arg3)
abbrev argWm : S128x16.Idx → EReal := m ((c.tc : Thread nD τ).loc main_arg4)
abbrev argWs : S128x16.Idx → EReal := m ((c.tc : Thread nD τ).loc main_arg5)

/-- The two projected hidden arrays, the latent and its transpose, of the arguments. -/
abbrev hidM : S10000x16.Idx → EReal := project (argA m c) (prod (argX m c) (argW m c)) (argWm m c)
abbrev hidS : S10000x16.Idx → EReal := project (argA m c) (prod (argX m c) (argW m c)) (argWs m c)
abbrev lat : S10000x16.Idx → EReal := latent (argA m c) (hidM m c) (hidS m c) (argE m c)

/-! ## Entering launch 1 -/

theorem at1_xw : V1 m ρ c main_v0 = prod (argX m c) (argW m c) :=
  (W1_arr m ρ c 2).trans (final0_2 (V0 m ρ) c)
theorem at1_A : V1 m ρ c main_arg1 = argA m c := W1_of_ne m ρ c main_arg1 (by decide)
theorem at1_Wm : V1 m ρ c main_arg4 = argWm m c := W1_of_ne m ρ c main_arg4 (by decide)
theorem at1_Ws : V1 m ρ c main_arg5 = argWs m c := W1_of_ne m ρ c main_arg5 (by decide)
theorem at1_E : V1 m ρ c main_arg2 = argE m c := W1_of_ne m ρ c main_arg2 (by decide)

/-! ## Entering launch 2 -/

theorem at2_hm : V2 m ρ c main_v1_0 = hidM m c := by
  refine (W2_arr m ρ c 4).trans ((final1_4 (V1 m ρ) c).trans ?_)
  rw [at1_A, at1_xw, at1_Wm]
theorem at2_hs : V2 m ρ c main_v1_1 = hidS m c := by
  refine (W2_arr m ρ c 5).trans ((final1_5 (V1 m ρ) c).trans ?_)
  rw [at1_A, at1_xw, at1_Ws]
theorem at2_A : V2 m ρ c main_arg1 = argA m c :=
  ((W2_arr m ρ c 0).trans (((dat1 (V1 m ρ) c).arrAt_in 0 rfl _).trans (A_eq1 (V1 m ρ) c 0))).trans (at1_A m ρ c)
theorem at2_E : V2 m ρ c main_arg2 = argE m c :=
  (W2_of_ne m ρ c main_arg2 (by decide)).trans (at1_E m ρ c)

/-! ## After launch 2 -/

theorem at3_mu : V3 m ρ c main_v2_0 = prod (argA m c) (hidM m c) := by
  refine (W3_arr m ρ c 4).trans ((final2_4 (V2 m ρ) c).trans ?_)
  rw [at2_A, at2_hm]
theorem at3_ls : V3 m ρ c main_v2_1 = prod (argA m c) (hidS m c) := by
  refine (W3_arr m ρ c 5).trans ((final2_5 (V2 m ρ) c).trans ?_)
  rw [at2_A, at2_hs]
theorem at3_z : V3 m ρ c main_v2_2 = lat m c := by
  refine (W3_arr m ρ c 6).trans ((final2_6 (V2 m ρ) c).trans ?_)
  rw [at2_A, at2_hm, at2_hs, at2_E]

/-! ## The host transposition: entering launch 3 -/

/-- The host line writes only the transposed array. -/
theorem at4_of_ne (b : Ref sig .tc) (hb : (main_v3 : Ref sig .tc) ≠ b) :
    W4 m ρ c (Proc.devRef .tc b) = W3 m ρ c (Proc.devRef .tc b) :=
  StableHlo.after_of_forall_not_mem (b := Proc.devRef .tc b) _ _ (List.forall_iff_forall_mem.mp (by
    simp only [hostOps3, List.Forall, StableHlo.unary_writes, Finset.mem_singleton]
    exact StableHlo.devRef_ne_of_ne hb.symm))

theorem at4_z : V4 m ρ c main_v2_2 = lat m c := (at4_of_ne m ρ c main_v2_2 (by decide)).trans (at3_z m ρ c)

theorem at4_zt : V4 m ρ c main_v3 = transpose S16x10000 [1, 0] (lat m c) transposes_S10000x16_S16x10000_1_0 := by
  have e : (V4 m ρ c main_v3 : S16x10000.Idx → EReal)
      = transpose S16x10000 [1, 0] (V3 m ρ c main_v2_2 : S10000x16.Idx → EReal) transposes_S10000x16_S16x10000_1_0 := by
    show StableHlo.after hostOps3 (W3 m ρ c) (Proc.devRef .tc main_v3) = _
    after_results
  rw [e, at3_z]

/-! ## After launch 3: the results -/

theorem result_ahat : W5 m ρ c (Proc.devRef .tc main_v4)
    = decode (lat m c) (transpose S16x10000 [1, 0] (lat m c) transposes_S10000x16_S16x10000_1_0) := by
  refine (W5_arr m ρ c 2).trans ((final3_2 (V4 m ρ) c).trans ?_)
  rw [at4_z, at4_zt]

theorem result_mu : W5 m ρ c (Proc.devRef .tc main_v2_0) = prod (argA m c) (hidM m c) :=
  (W5_of_ne m ρ c main_v2_0 (by decide)).trans ((at4_of_ne m ρ c main_v2_0 (by decide)).trans (at3_mu m ρ c))

theorem result_ls : W5 m ρ c (Proc.devRef .tc main_v2_1) = prod (argA m c) (hidS m c) :=
  (W5_of_ne m ρ c main_v2_1 (by decide)).trans ((at4_of_ne m ρ c main_v2_1 (by decide)).trans (at3_ls m ρ c))

/-! ## The run -/

/-- Every weakly fair execution of the idealized kernel terminates with its three results at the layers of the
    specification applied to the argument arrays, and the arguments unchanged. -/
theorem run : θ_run (defs (F := Ideal)) (onTc (τ := τ) (main (F := Ideal))) ⟨m, fun _ => 0, ρ⟩ (fun r => ∀ c : Dev nD,
      r.2.mem ((c.tc : Thread nD τ).loc main_v4)
        = decode (lat m c) (transpose S16x10000 [1, 0] (lat m c) transposes_S10000x16_S16x10000_1_0)
      ∧ r.2.mem ((c.tc : Thread nD τ).loc main_v2_0) = prod (argA m c) (hidM m c)
      ∧ r.2.mem ((c.tc : Thread nD τ).loc main_v2_1) = prod (argA m c) (hidS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c =>
      ⟨(h c).1.trans (result_ahat m ρ c), (h c).2.1.trans (result_mu m ρ c), (h c).2.2.1.trans (result_ls m ρ c), (h c).2.2.2⟩)
    (Cert.KernelIdeal.Named.run (F := Ideal) m ρ)

end Cert.KernelIdeal.Layers

end
-- ==== Proof.RefLayers.lean ====
/-
  The reference, stage by stage, is the layers of the specification: each host `dot_general` is the plain matrix
  product, `maximum` with the broadcast zero is the clamp, `add (mul ε (exp s))` the reparameterisation, and
  `1 / (1 + exp (-x))` — the host's quotient of the literal ones — the sigmoid, on every extended real. The
  transposition `Zᵀ` is kept as the operation itself: the kernel's program applies the same one.
-/
import proofs.«171704_g11158325035212_week1_w3_1129_2_alg».proof.Proof.Gen.ReferenceIdeal.Read
import proofs.«171704_g11158325035212_week1_w3_1129_2_alg».proof.Proof.Spec

noncomputable section

namespace Cert.ReferenceIdeal.AsLayers

open Cert.ReferenceIdeal Cert.ReferenceIdeal.Gen Cert.ReferenceIdeal.Read Idealize.ShloMosaic Idealize.ShloMosaic.ValueIdx Cert.MatProd Cert.Vgae

/-! ## The five products -/

theorem xw_eq (l : FVec Ideal S10000x128 .f32) (r : FVec Ideal S128x128 .f32) :
    Host.dotGeneral (F := Ideal) dot_S10000x128_S128x128_S10000x128_1_0_0_1_n_n none l r = prod l r :=
  dotGeneral_plain_eq (M := 10000) (K := 128) (N := 128) none .single l r

theorem axw_eq (l : FVec Ideal S10000x10000 .f32) (r : FVec Ideal S10000x128 .f32) :
    Host.dotGeneral (F := Ideal) dot_S10000x10000_S10000x128_S10000x128_1_0_0_1_n_n none l r = prod l r :=
  dotGeneral_plain_eq (M := 10000) (K := 10000) (N := 128) none .single l r

theorem hw_eq (l : FVec Ideal S10000x128 .f32) (r : FVec Ideal S128x16 .f32) :
    Host.dotGeneral (F := Ideal) dot_S10000x128_S128x16_S10000x16_1_0_0_1_n_n none l r = prod l r :=
  dotGeneral_plain_eq (M := 10000) (K := 128) (N := 16) none .single l r

theorem ahw_eq (l : FVec Ideal S10000x10000 .f32) (r : FVec Ideal S10000x16 .f32) :
    Host.dotGeneral (F := Ideal) dot_S10000x10000_S10000x16_S10000x16_1_0_0_1_n_n none l r = prod l r :=
  dotGeneral_plain_eq (M := 10000) (K := 10000) (N := 16) none .single l r

theorem zzt_eq (l : FVec Ideal S10000x16 .f32) (r : FVec Ideal S16x10000 .f32) :
    Host.dotGeneral (F := Ideal) dot_S10000x16_S16x10000_S10000x10000_1_0_0_1_n_n none l r = prod l r :=
  dotGeneral_plain_eq (M := 10000) (K := 16) (N := 10000) none .single l r

/-! ## The stages -/

variable (x0 : FVec Ideal S10000x128 .f32) (x1 : FVec Ideal S10000x10000 .f32) (x2 : FVec Ideal S10000x16 .f32)
  (x3 : FVec Ideal S128x128 .f32) (x4 x5 : FVec Ideal S128x16 .f32)

/-- `X · W1`. -/
theorem stage0 : val_main_v0 (F := Ideal) x0 x3 = prod x0 x3 := by
  unfold val_main_v0; exact xw_eq x0 x3

/-- `A · (X · W1)`. -/
theorem stage1 : val_main_v1 (F := Ideal) x0 x1 x3 = prod x1 (prod x0 x3) := by
  unfold val_main_v1; rw [stage0, axw_eq]

/-- The hidden layer `relu (A · (X · W1))`. -/
theorem stage2 : val_main_v2 (F := Ideal) x0 x1 x3 = relu (prod x1 (prod x0 x3)) := by
  unfold val_main_v2; rw [stage1]; rfl

/-- `h · Wμ`. -/
theorem stage3 : val_main_v3 (F := Ideal) x0 x1 x3 x4 = project x1 (prod x0 x3) x4 := by
  unfold val_main_v3; rw [stage2, hw_eq]; rfl

/-- The mean `A · (h · Wμ)`. -/
theorem stage4 : val_main_v4 (F := Ideal) x0 x1 x3 x4 = prod x1 (project x1 (prod x0 x3) x4) := by
  unfold val_main_v4; rw [stage3, ahw_eq]

/-- `h · Wσ`. -/
theorem stage5 : val_main_v5 (F := Ideal) x0 x1 x3 x5 = project x1 (prod x0 x3) x5 := by
  unfold val_main_v5; rw [stage2, hw_eq]; rfl

/-- The log-deviation `A · (h · Wσ)`. -/
theorem stage6 : val_main_v6 (F := Ideal) x0 x1 x3 x5 = prod x1 (project x1 (prod x0 x3) x5) := by
  unfold val_main_v6; rw [stage5, ahw_eq]

/-- The latent `μ + ε ⊙ exp s`. -/
theorem stage9 : val_main_v9 (F := Ideal) x0 x1 x2 x3 x4 x5
    = latent x1 (project x1 (prod x0 x3) x4) (project x1 (prod x0 x3) x5) x2 := by
  unfold val_main_v9 val_main_v8 val_main_v7; rw [stage4, stage6]; rfl

/-- The decoder `sigmoid (Z · Zᵀ)`, the transposition kept as the host's operation. -/
theorem stage17 : val_main_v17 (F := Ideal) x0 x1 x2 x3 x4 x5
    = decode (latent x1 (project x1 (prod x0 x3) x4) (project x1 (prod x0 x3) x5) x2)
        (transpose S16x10000 [1, 0] (latent x1 (project x1 (prod x0 x3) x4) (project x1 (prod x0 x3) x5) x2)
          transposes_S10000x16_S16x10000_1_0) := by
  unfold val_main_v17 val_main_v16 val_main_v15 val_main_v14 val_main_v13 val_main_v12 val_main_v11 val_main_v10
    val_main_cst val_main_cst_0
  rw [stage9, zzt_eq]
  funext i
  exact div_one_add_exp_neg _

end Cert.ReferenceIdeal.AsLayers

end
-- ==== Proof.lean ====
/-
  A variational graph auto-encoder's forward pass, tiled by rows, against its plain reference.

  With `A` the dense adjacency, `X` the features, `ε` the noise and `W1`, `Wμ`, `Wσ` the weights, both programs
  compute
      h = relu (A · (X · W1)),   μ = A · (h · Wμ),   s = A · (h · Wσ),   Z = μ + ε ⊙ exp s,   Â = sigmoid (Z · Zᵀ)
  and return `(Â, μ, s)`. The kernel does it in four launches — `X · W1` whole; then, 400 rows of `A` at a time,
  `relu (A_blk · xw)` projected by `Wμ` and by `Wσ`; then `A_blk` times the two projected arrays with the
  reparameterisation; then, after a host transposition of `Z`, `sigmoid (Z_blk · Zᵀ)` — where the reference
  streams the whole arrays. Nothing is re-associated: every product is the same plain matrix product on both sides
  (a kernel's product into a zero accumulator and the host's `dot_general` are one sum over the extended reals),
  a block of rows of each layer depends on the same block of rows of its row operand, and the row blocks tile the
  results. The kernel's one-operation sigmoid and the reference's spelt-out `1 / (1 + exp (-x))` denote one function
  on every extended real. So the results agree for ALL extended-real inputs: the precondition is never opened.

  The idealization rewrote no operation, so `preserves` is trivial. The three frames are the generated ones (the
  reference's is its generated run with the results dropped).
-/
import proofs.«171704_g11158325035212_week1_w3_1129_2_alg».proof.Defs
import proofs.«171704_g11158325035212_week1_w3_1129_2_alg».proof.Proof.Gen.Kernel
import proofs.«171704_g11158325035212_week1_w3_1129_2_alg».proof.Proof.Gen.Kernel.Frame
import proofs.«171704_g11158325035212_week1_w3_1129_2_alg».proof.Proof.Gen.KernelIdeal
import proofs.«171704_g11158325035212_week1_w3_1129_2_alg».proof.Proof.Gen.KernelIdeal.Frame
import proofs.«171704_g11158325035212_week1_w3_1129_2_alg».proof.Proof.Gen.ReferenceIdeal
import proofs.«171704_g11158325035212_week1_w3_1129_2_alg».proof.Proof.Gen.ReferenceIdeal.Run
import proofs.«171704_g11158325035212_week1_w3_1129_2_alg».proof.Proof.Gen.ReferenceIdeal.Read
import proofs.«171704_g11158325035212_week1_w3_1129_2_alg».proof.Proof.Gen.Pre_finite_inputs
import proofs.«171704_g11158325035212_week1_w3_1129_2_alg».proof.Proof.KernelLayers
import proofs.«171704_g11158325035212_week1_w3_1129_2_alg».proof.Proof.RefLayers
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with `(sigmoid (Z · Zᵀ), μ, s)` of those arguments:
    the kernel's launches composed, and the reference's stages, are the same layers. -/
theorem algebraic : Cert.algebraic_KernelIdeal_ReferenceIdeal := by
  intro m ρ m' ρ' _ hagree
  refine ⟨_, _, _, Cert.KernelIdeal.Layers.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2.1.trans ?_, (h c).2.2.2⟩
  · rw [Cert.ReferenceIdeal.Read.val_main_v17_eq, Cert.ReferenceIdeal.AsLayers.stage17, a0, a1, a2, a3, a4, a5]
  · rw [Cert.ReferenceIdeal.Read.val_main_v4_eq, Cert.ReferenceIdeal.AsLayers.stage4, a0, a1, a3, a4]
  · rw [Cert.ReferenceIdeal.Read.val_main_v6_eq, Cert.ReferenceIdeal.AsLayers.stage6, a0, a1, a3, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
